-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x64 : Shape := ⟨2, ![512, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x512 .f32) (main_arg1 : FVec F S1600000 .f32) (main_arg2 : FVec F S512x64 .f32) (main_arg3 : FVec F S64 .f32) (main_arg4 : IVec S1600000 32) (main_arg5 : IVec S1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x512 : Shape := ⟨2, ![100000, 512]⟩
abbrev S1600000 : Shape := ⟨1, ![1600000]⟩
abbrev S512x64 : Shape := ⟨2, ![512, 64]⟩
abbrev S64 : Shape := ⟨1, ![64]⟩
abbrev S100000x64 : Shape := ⟨2, ![100000, 64]⟩
abbrev S4000x512 : Shape := ⟨2, ![4000, 512]⟩
abbrev S4000x64 : Shape := ⟨2, ![4000, 64]⟩
abbrev S_ : Shape := ⟨0, ![]⟩
abbrev S1600000x1 : Shape := ⟨2, ![1600000, 1]⟩
abbrev S1600000x64 : Shape := ⟨2, ![1600000, 64]⟩
abbrev S1600000x65 : Shape := ⟨2, ![1600000, 65]⟩
abbrev S100000x65 : Shape := ⟨2, ![100000, 65]⟩
abbrev S100000x1 : Shape := ⟨2, ![100000, 1]⟩
abbrev S100000 : Shape := ⟨1, ![100000]⟩
abbrev S1x64 : Shape := ⟨2, ![1, 64]⟩

abbrev nBuf : Space → Nat
  | .hbm => 51
  | .vmem => 5
  | .smem => 0
  | _ => 0

abbrev bufTy : (tb : Table) → Fin (tcTables nBuf tb) → BufTy
  | .hbm, ⟨0, _⟩ => ⟨S100000x512, .f32⟩
  | .hbm, ⟨1, _⟩ => ⟨S1600000, .f32⟩
  | .hbm, ⟨2, _⟩ => ⟨S512x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S100000x64, .bf16⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .bf16⟩
  | .hbm, ⟨16, _⟩ => ⟨S1600000x64, .f32⟩
  | .hbm, ⟨17, _⟩ => ⟨S1600000x1, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S1600000x1, .f32⟩
  | .hbm, ⟨22, _⟩ => ⟨S1600000x65, .f32⟩
  | .hbm, ⟨23, _⟩ => ⟨S_, .f32⟩
  | .hbm, ⟨24, _⟩ => ⟨S100000x65, .f32⟩
  | .hbm, ⟨25, _⟩ => ⟨S1600000x1, .i32⟩
  | .hbm, ⟨26, _⟩ => ⟨S100000x65, .f32⟩
  | .hbm, ⟨27, _⟩ => ⟨S100000x64, .f32⟩
  | .hbm, ⟨28, _⟩ => ⟨S100000x1, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .i1⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S_, .f32⟩
  | .hbm, ⟨42, _⟩ => ⟨S100000x64, .i1⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x64, .bf16⟩
  | .local _ .vmem, ⟨4, _⟩ => ⟨S4000x64, .bf16⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_cst : Ref sig .tc := ⟨.hbm, 48, rfl⟩
abbrev main_call1_v0 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S1600000x1 : S_.BroadcastsInDim S1600000x1 (![] : Fin 0 → Fin S1600000x1.rank)
  concatenates_S1600000x64_S1600000x1_S1600000x65_d1 : Shape.Concatenates [S1600000x64, S1600000x1] S1600000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S4000x512_S512x64_S4000x64_1_0_0_1_n_n_wf : DotDims.WF S4000x512 S512x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x65_S1600000x1_S1600000x65_1_0_0_1_wf : ScatterDims.WF S100000x65 S1600000x1 S1600000x65 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .bf16 = 32 ∨ (Rect.block (s := S100000x64) S4000x64.size (cc0_transform_2 i) (hinb0_2 i)).WholeWords (EltTy.packing .bf16)

variable [Facts₀]

def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x64 : Shape := ⟨2, ![512, 64]⟩
abbrev S64 : Shape := ⟨1, ![64]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 50
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .f32⟩
  | .hbm, ⟨2, _⟩ => ⟨S512x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S100000x1, .f32⟩
  | .hbm, ⟨30, _⟩ => ⟨S_, .f32⟩
  | .hbm, ⟨31, _⟩ => ⟨S100000x1, .f32⟩
  | .hbm, ⟨32, _⟩ => ⟨S100000x1, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S_, .f32⟩
  | .hbm, ⟨41, _⟩ => ⟨S100000x64, .i1⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.LibAfter.lean ====
/-
  The buffer contents after two lines of host operations run one after the other are the contents after the second
  line, started from the contents after the first.  Imports only the library.
-/
import Idealize.ShloMosaic.Lib.StableHlo.Run

noncomputable section

namespace Cert.LibAfter

open Idealize.ShloMosaic Idealize.ShloMosaic.StableHlo

variable {τ : Topo} {sig : RefSig} {Val : EltTy → Type}

/-- `after (l₁ ++ l₂) V = after l₂ (after l₁ V)`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfter

end
-- ==== Proof.KTail.lean ====
/-
  The kernel's host operations after its one region, as one function of the projected node table and the other arguments.

  From the table h : [N, 64] (N = 100000 nodes), the edge weights ew : [E] (E = 1600000 edges), the bias : [64] and the
  two index vectors src, dst : [E] the program computes, in order:

    msg(e, j)    = h(row(src e), j) · ew(e)            the gathered row of each edge's source node, scaled by the edge's weight
                                                        (src e is first wrapped: a negative index counts from the end);
    fused        = the zero table [N, 65] with row e of [msg | 1] added into row dst e, for every edge e
                   (message columns 0 … 63 and a column of ones in column 64, scattered in one pass);
    msum         = columns 0 … 63 of fused,    deg = column 64 of fused as a vector [N];
    positive n   = (deg n > 0),    mean(n, j) = msum(n, j) / max(deg n, 1);
    out(n, j)    = max( where(positive n, mean(n, j), 0) + bias j , 0 ).

  `last` is the final line as a function of (positive, mean, the zero scalar, bias), `finish` the same as a function of
  (msum, deg, bias), and `tail` composes everything.  The operations are read in two stretches — the 34 operations up to
  the quotient, then the 10 of the select, the bias and the clip — and `after_tail` joins them: the operations' fold over
  any contents of the buffers leaves the result buffer at `tail` of those contents.
-/
import proofs.«100804_j66202625900919_2_alg».proof.Proof.Gen.KernelIdeal.Launch
import proofs.«100804_j66202625900919_2_alg».proof.Proof.LibAfter
import Idealize.ShloMosaic.Lib.StableHlo.Run
import Idealize.ShloMosaic.PureOps.Ideal

noncomputable section

namespace Cert.KernelIdeal.Tail

open Cert.KernelIdeal Cert.KernelIdeal.Gen Idealize.ShloMosaic Idealize.ShloMosaic.TcCoe Idealize.SL.Sem
open Idealize.ShloMosaic.StableHlo

/-- The edges' source indices, a negative one wrapped from the end, as a column [E, 1]. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The message of each edge: its source node's row of the table times the edge's weight. -/
def msg (h : FVec Ideal S100000x64 .bf16) (ew : FVec Ideal S1600000 .f32) (src : IVec S1600000 32) :
    FVec Ideal S1600000x64 .f32 :=
  mulf (extf .f32 (Host.gather gather_S100000x64_S1600000x1_S1600000x64_1_0_n_n_0_1_164 h (srcCol src)) bitsLt_bf16_f32)
    (broadcastInDim S1600000x64 ![0, 1] bcast_S1600000x1_S1600000x64_0_1
      (broadcastInDim S1600000x1 ![0] bcast_S1600000_S1600000x1_0 ew))

/-- The one scatter pass: rows [msg | 1] added into the zero table [N, 65] at the edges' destination rows. -/
def fused (h : FVec Ideal S100000x64 .bf16) (ew : FVec Ideal S1600000 .f32) (src dst : IVec S1600000 32) :
    FVec Ideal S100000x65 .f32 :=
  Host.scatterAdd (F := Ideal) scatter_S100000x65_S1600000x1_S1600000x65_1_0_0_1
    (broadcastInDim S100000x65 ![] bcast_S_S100000x65 (constant (F := Ideal) S_ .f32 0x00000000#32))
    (broadcastInDim S1600000x1 ![0] bcast_S1600000_S1600000x1_0 dst)
    (concatenate S1600000x65 1 [⟨S1600000x64, msg h ew src⟩,
      ⟨S1600000x1, broadcastInDim S1600000x1 ![] bcast_S_S1600000x1 (constant (F := Ideal) S_ .f32 0x3F800000#32)⟩]
      concatenates_S1600000x64_S1600000x1_S1600000x65_d1)

/-- The summed messages: columns 0 … 63 of the fused table. -/
def msum (h : FVec Ideal S100000x64 .bf16) (ew : FVec Ideal S1600000 .f32) (src dst : IVec S1600000 32) :
    FVec Ideal S100000x64 .f32 :=
  extractStridedSlice S100000x64 ![0, 0] (fused h ew src dst) slices_S100000x65_S100000x64_0_0

/-- The in-degrees: column 64 of the fused table, as a vector. -/
def deg (h : FVec Ideal S100000x64 .bf16) (ew : FVec Ideal S1600000 .f32) (src dst : IVec S1600000 32) :
    FVec Ideal S100000 .f32 :=
  fun i => shapeCast S100000 (extractStridedSlice S100000x1 ![0, 64] (fused h ew src dst) slices_S100000x65_S100000x1_0_64)
    shapeCasts_S100000x1_S100000 i

/-- Which nodes have an incoming edge: deg > 0, as a column [N, 1] of bits. -/
def positive (dg : FVec Ideal S100000 .f32) : IVec S100000x1 1 :=
  cmpf (F := Ideal) .ogt (broadcastInDim S100000x1 ![0] bcast_S100000_S100000x1_0 dg)
    (broadcastInDim S100000x1 ![] bcast_S_S100000x1 (constant (F := Ideal) S_ .f32 0x00000000#32))

/-- The summed messages over max(deg, 1), row by row. -/
def mean (ms : FVec Ideal S100000x64 .f32) (dg : FVec Ideal S100000 .f32) : FVec Ideal S100000x64 .f32 :=
  Host.divf (F := Ideal) ms
    (broadcastInDim S100000x64 ![0, 1] bcast_S100000x1_S100000x64_0_1
      (broadcastInDim S100000x1 ![0] bcast_S100000_S100000x1_0
        (maximumf dg (broadcastInDim S100000 ![] bcast_S_S100000 (constant (F := Ideal) S_ .f32 0x3F800000#32)))))

/-- The last line: where a node has an incoming edge its mean, else the scalar z; plus the bias; clipped below at 0. -/
def last (p : IVec S100000x1 1) (mn : FVec Ideal S100000x64 .f32) (z : FVec Ideal S_ .f32) (bias : FVec Ideal S64 .f32) :
    FVec Ideal S100000x64 .f32 :=
  maximumf
    (addf
      (select (broadcastInDim S100000x64 ![0, 1] bcast_S100000x1_S100000x64_0_1 p) mn
        (broadcastInDim S100000x64 ![] bcast_S_S100000x64 (id z)))
      (broadcastInDim S100000x64 ![0, 1] bcast_S1x64_S100000x64_0_1 (broadcastInDim S1x64 ![1] bcast_S64_S1x64_1 bias)))
    (broadcastInDim S100000x64 ![] bcast_S_S100000x64 (constant (F := Ideal) S_ .f32 0x00000000#32))

/-- The mean over the incoming edges (0 at a node without any), plus the bias, clipped below at 0. -/
def finish (ms : FVec Ideal S100000x64 .f32) (dg : FVec Ideal S100000 .f32) (bias : FVec Ideal S64 .f32) :
    FVec Ideal S100000x64 .f32 :=
  last (positive dg) (mean ms dg) (constant (F := Ideal) S_ .f32 0x00000000#32) bias

/-- Everything after the region. -/
def tail (h : FVec Ideal S100000x64 .bf16) (ew : FVec Ideal S1600000 .f32) (bias : FVec Ideal S64 .f32)
    (src dst : IVec S1600000 32) : FVec Ideal S100000x64 .f32 :=
  finish (msum h ew src dst) (deg h ew src dst) bias

/-! ## The first stretch: the 34 operations up to the quotient -/

section First
variable (W : Valuation τ sig (Elt Ideal))

set_option maxHeartbeats 2000000 in
/-- The bit column "has an incoming edge" after the first stretch. -/
theorem first_positive :
    StableHlo.after hostOps1 W (Proc.devRef .tc main_v24)
      = positive (deg (W (Proc.devRef .tc main_v0)) (W (Proc.devRef .tc main_arg1)) (W (Proc.devRef .tc main_arg4))
          (W (Proc.devRef .tc main_arg5))) := by
  simp only [hostOps1]
  after_results_simp
  -- the two operands of the concatenation (the messages, the column of ones) are read the same way
  repeat (first
    | rw [nullary_result] | rw [unary_result] | rw [binary_result] | rw [ternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 2000000 in
/-- The quotient after the first stretch. -/
theorem first_mean :
    StableHlo.after hostOps1 W (Proc.devRef .tc main_v27)
      = mean (msum (W (Proc.devRef .tc main_v0)) (W (Proc.devRef .tc main_arg1)) (W (Proc.devRef .tc main_arg4))
            (W (Proc.devRef .tc main_arg5)))
          (deg (W (Proc.devRef .tc main_v0)) (W (Proc.devRef .tc main_arg1)) (W (Proc.devRef .tc main_arg4))
            (W (Proc.devRef .tc main_arg5))) := by
  simp only [hostOps1]
  after_results_simp
  repeat (first
    | rw [nullary_result] | rw [unary_result] | rw [binary_result] | rw [ternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 2000000 in
/-- The zero scalar the select falls back on. -/
theorem first_zero :
    StableHlo.after hostOps1 W (Proc.devRef .tc main_cst_4) = constant (F := Ideal) S_ .f32 0x00000000#32 := by
  simp only [hostOps1]
  after_results_simp

set_option maxHeartbeats 2000000 in
/-- The bias is not written. -/
theorem first_bias : StableHlo.after hostOps1 W (Proc.devRef .tc main_arg3) = W (Proc.devRef .tc main_arg3) := by
  simp only [hostOps1]
  after_results_simp

end First

/-! ## The second stretch: the select, the bias, the clip -/

set_option maxHeartbeats 2000000 in
/-- The ten operations after the quotient leave the result buffer at `last` of the four buffers they read. -/
theorem second (W : Valuation τ sig (Elt Ideal)) :
    StableHlo.after (hostOps1_1 ++ (hostOps1_2 ++ hostOps1_3)) W (Proc.devRef .tc main_v32)
      = last (W (Proc.devRef .tc main_v24)) (W (Proc.devRef .tc main_v27)) (W (Proc.devRef .tc main_cst_4))
          (W (Proc.devRef .tc main_arg3)) := by
  simp only [hostOps1_1, hostOps1_2, hostOps1_3, List.cons_append, List.nil_append]
  after_results_simp
  rfl

/-! ## Both stretches -/

/-- The lines after the region, folded over any contents W of the buffers, leave the result buffer at `tail` of W's
    contents of the table's buffer and of the four other arguments' buffers. -/
theorem after_tail (W : Valuation τ sig (Elt Ideal)) :
    StableHlo.after (List.flatten [hostOps1, hostOps1_1, hostOps1_2, hostOps1_3]) W (Proc.devRef .tc main_v32)
      = tail (W (Proc.devRef .tc main_v0)) (W (Proc.devRef .tc main_arg1)) (W (Proc.devRef .tc main_arg3))
          (W (Proc.devRef .tc main_arg4)) (W (Proc.devRef .tc main_arg5)) := by
  have hl : List.flatten [hostOps1, hostOps1_1, hostOps1_2, hostOps1_3]
      = (hostOps1 : List (HloOp τ sig (Elt Ideal))) ++ (hostOps1_1 ++ (hostOps1_2 ++ hostOps1_3)) := by
    simp only [List.flatten_cons, List.flatten_nil, List.append_nil]
  rw [hl, Cert.LibAfter.after_append, second, first_positive, first_mean, first_zero, first_bias]
  rfl

end Cert.KernelIdeal.Tail

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.ProjValue.lean ====
/-
  The projected node table h = feat · weight after the kernel's one region, as ONE function of the two argument arrays.

  The region walks the 100000 rows of feat in 25 blocks of 4000 rows.  At block t the body loads rows 4000 t … 4000 t + 3999
  of feat (all 512 columns) and the whole of weight, forms their matrix product into a zero accumulator, and stores the
  4000 × 64 result as rows 4000 t … 4000 t + 3999 of the output; the changes of float format on the way in and on the way
  out are the identity on extended reals.  Entry (p, q) of the block's product is Σ_{k < 512} feat(4000 t + p, k) · weight(k, q),
  which is entry (4000 t + p, q) of the whole product, and row r of the output lies in block r / 4000.  So the 25 blocks
  tile the output array, and after the region it holds, at every (r, q),

      prod feat weight (r, q) = Σ_{k < 512} feat(r, k) · weight(k, q).
-/
import proofs.«100804_j66202625900919_2_alg».proof.Proof.Gen.KernelIdeal.Frame
import proofs.«100804_j66202625900919_2_alg».proof.Proof.LibMatmulZero
import Idealize.ShloMosaic.Lib.Pipeline.Value
import Idealize.ShloMosaic.Lib.ValueIdx

noncomputable section

open scoped BigOperators

namespace Cert.KernelIdeal.Proj

open Cert.KernelIdeal Cert.KernelIdeal.Gen Idealize.ShloMosaic Idealize.ShloMosaic.TcCoe Idealize.ShloMosaic.ValueIdx
open Idealize.SL.Sem
open Idealize.ShloMosaic.Pipeline (Dat)

/-- The product of a 100000 × 512 table and a 512 × 64 matrix on the extended reals, entry by entry. -/
def prod (feat : S100000x512.Idx → EReal) (wt : S512x64.Idx → EReal) : S100000x64.Idx → EReal :=
  fun i => ∑ k : Fin 512, feat (ix2 (n0 := 100000) (i 0) k) * wt (ix2 (n1 := 64) k (i 1))

theorem prod_apply (feat : S100000x512.Idx → EReal) (wt : S512x64.Idx → EReal) (r : Fin 100000) (q : Fin 64) :
    prod feat wt (ix2 r q) = ∑ k : Fin 512, feat (ix2 r k) * wt (ix2 k q) := rfl

/-! ## The body's stored value at one entry of a block -/

/-- The result's row axis is the left operand's row axis. -/
theorem lhs_row (i : S4000x64.Idx) (c : dot_S4000x512_S512x64_S4000x64_1_0_0_1_n_n.contr.Idx) :
    (dot_S4000x512_S512x64_S4000x64_1_0_0_1_n_n.lhsIdx i c 0).val = (i 0).val := by
  unfold DotDims.lhsIdx
  rw [dif_neg (show ¬(0 : Fin _) ∈ dot_S4000x512_S512x64_S4000x64_1_0_0_1_n_n.lhsBatch by decide),
    dif_pos (show (0 : Fin _) ∈ dot_S4000x512_S512x64_S4000x64_1_0_0_1_n_n.lhsNonContracting by decide)]
  rfl

/-- The result's column axis is the right operand's column axis. -/
theorem rhs_col (i : S4000x64.Idx) (c : dot_S4000x512_S512x64_S4000x64_1_0_0_1_n_n.contr.Idx) :
    (dot_S4000x512_S512x64_S4000x64_1_0_0_1_n_n.rhsIdx i c 1).val = (i 1).val := by
  unfold DotDims.rhsIdx
  rw [dif_neg (show ¬(1 : Fin _) ∈ dot_S4000x512_S512x64_S4000x64_1_0_0_1_n_n.rhsBatch by decide),
    dif_pos (show (1 : Fin _) ∈ dot_S4000x512_S512x64_S4000x64_1_0_0_1_n_n.rhsNonContracting by decide)]
  rfl

/-- What the body stores, at entry (p, q) of its block: the row p of the loaded rows of feat against column q of
    weight.  The two roundings into the product and the one out of it are the identity. -/
theorem pay_apply (x0 : FVec Ideal S4000x512 .f32) (x1 : FVec Ideal S512x64 .f32) (p : Fin 4000) (q : Fin 64) :
    k0_pay1 (F := Ideal) x0 x1 (ix2 p q) = ∑ k : Fin 512, x0 (ix2 p k) * x1 (ix2 k q) := by
  unfold k0_pay1
  exact Cert.LibMatmulZero.matmul_zero_ix2 dot_S4000x512_S512x64_S4000x64_1_0_0_1_n_n rfl rfl rfl rfl lhs_row rhs_col none
    (truncf .bf16 x0 bitsLt_bf16_f32) (truncf .bf16 x1 bitsLt_bf16_f32) p q

/-- The same at any index of the block. -/
theorem pay_at (x0 : FVec Ideal S4000x512 .f32) (x1 : FVec Ideal S512x64 .f32) (j : S4000x64.Idx) :
    k0_pay1 (F := Ideal) x0 x1 j = ∑ k : Fin 512, x0 (ix2 (n0 := 4000) (j 0) k) * x1 (ix2 (n1 := 64) k (j 1)) := by
  obtain ⟨p, q, rfl⟩ : ∃ (p : Fin 4000) (q : Fin 64), j = ix2 p q := ⟨j 0, j 1, eq_ix2 j⟩
  exact pay_apply x0 x1 p q

/-- A sum of products of entries of the two tables does not change when the entries' indices are replaced by equal ones. -/
theorem sum_reindex (A : S100000x512.Idx → EReal) (B : S512x64.Idx → EReal)
    (a a' : Fin 512 → S100000x512.Idx) (b b' : Fin 512 → S512x64.Idx)
    (ha : ∀ k, a k = a' k) (hb : ∀ k, b k = b' k) :
    ∑ k : Fin 512, A (a k) * B (b k) = ∑ k : Fin 512, A (a' k) * B (b' k) :=
  Finset.sum_congr rfl fun k _ => by rw [ha k, hb k]

/-! ## From the blocks to the array -/

variable (m : (ℓ : Loc nD τ sig) → Buf (Elt Ideal) ℓ)

theorem off_zero : (![0, 0] : Fin 2 → Nat) = fun _ => 0 := funext fun a => by fin_cases a <;> rfl

/-- The printed index maps over the grid: block t of feat and of the output is the t-th block of rows; weight is one
    block; nothing moves along the columns. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the whole product of the arrays as the region finds them. -/
theorem flushed_eq (c : Dev nD) (t : Fin cfg0.N) :
    (dats m 0 c).flushed 2 t = ((cfg0.win 2).blk t).view.read (Elt Ideal) (prod (V m c main_arg0) (V m c main_arg2)) := by
  show (cfg0.win 2).cut (grid0.coords t) ((dats m 0 c).after 2 t) = _
  rw [after0_2]
  unfold out0_2
  rw [View.canon_unit_zero off_zero]
  simp only [View.ld_unit_zero (S := S4000x512) off_zero, View.ld_unit_zero (S := S512x64) off_zero]
  obtain ⟨e0, e1, e2, e3, e4, e5⟩ := idx_facts t
  funext j
  refine (pay_at (iblk m c 0 t) (iblk m c 1 t) j).trans ?_
  have h0 : ∀ k : Fin 512, ((cfg0.win 0).blk t).view.emb (ix2 (n0 := 4000) (j 0) k)
      = ix2 (n0 := 100000) ((((cfg0.win 2).blk t).view.emb j) 0) k := fun k => by
    funext a; apply Fin.ext
    match a with
    | ⟨0, _⟩ =>
      show win0_0.index t (0 : Fin 2) * 4000 + 1 * (j 0).val = win0_2.index t (0 : Fin 2) * 4000 + 1 * (j 0).val
      omega
    | ⟨1, _⟩ =>
      show win0_0.index t (1 : Fin 2) * 512 + 1 * k.val = k.val
      omega
  have h1 : ∀ k : Fin 512, ((cfg0.win 1).blk t).view.emb (ix2 (n1 := 64) k (j 1))
      = ix2 (n1 := 64) k ((((cfg0.win 2).blk t).view.emb j) 1) := fun k => by
    funext a; apply Fin.ext
    match a with
    | ⟨0, _⟩ =>
      show win0_1.index t (0 : Fin 2) * 512 + 1 * k.val = k.val
      omega
    | ⟨1, _⟩ =>
      show win0_1.index t (1 : Fin 2) * 64 + 1 * (j 1).val = win0_2.index t (1 : Fin 2) * 64 + 1 * (j 1).val
      omega
  exact sum_reindex (V m c main_arg0) (V m c main_arg2)
    (fun k => ((cfg0.win 0).blk t).view.emb (ix2 (n0 := 4000) (j 0) k))
    (fun k => ix2 (n0 := 100000) ((((cfg0.win 2).blk t).view.emb j) 0) k)
    (fun k => ((cfg0.win 1).blk t).view.emb (ix2 (n1 := 64) k (j 1)))
    (fun k => ix2 (n1 := 64) k ((((cfg0.win 2).blk t).view.emb j) 1)) h0 h1

/-- An index of the output array is in point t's block iff each coordinate is in the block's range on its axis. -/
theorem mem_blk (t : Fin cfg0.N) (i : S100000x64.Idx) :
    i ∈ ((cfg0.win 2).blk t).view.set ↔ ∀ a : Fin 2, win0_2.index t a * S4000x64.size a ≤ (i a).val
      ∧ (i a).val < win0_2.index t a * S4000x64.size a + S4000x64.size a := by
  show i ∈ ((View.whole main_v0).slice (win0_2.rect t)).set ↔ _
  rw [View.set_slice_whole, Rect.mem_set_unit]
  exact Iff.rfl

/-- Row r of the output lies in the block of point r / 4000: the 25 blocks cover the array. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := Fin.cast N_0.symm ⟨(i 0).val / 4000, by omega⟩
  have ht : t.val = (i 0).val / 4000 := rfl
  obtain ⟨e0, e1, e2, e3, e4, e5⟩ := idx_facts t
  refine ⟨t, flush0_2 t, ?_⟩
  rw [mem_blk]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 64 ≤ (i 1).val ∧ (i 1).val < win0_2.index t (1 : Fin 2) * 64 + 64
    omega

/-- The output array after the region: the product of the two argument arrays. -/
theorem final (c : Dev nD) :
    (dats m 0 c).arrAt 2 cfg0.N = prod (m ((c : Thread nD τ).loc main_arg0)) (m ((c : Thread nD τ).loc main_arg2)) :=
  (dats m 0 c).arrAt_eq_of_cover 2 (prod (V m c main_arg0) (V m c main_arg2)) (fun t _ => flushed_eq m c t) covered

end Cert.KernelIdeal.Proj

end
-- ==== Proof.KernelRun.lean ====
/-
  The kernel's whole run at the ideal values: the region, then the host operations after it.

  The generated frame run ends with every buffer the region's windows do not touch holding what the operations after
  the region compute from the region's exit contents.  Those contents are: the output window's array at the product of
  the table and the weight matrix (the 25 row blocks tile it), and every argument as launched.  The operations' fold at
  the result buffer is `tail` of these, so the result is

      tail (prod feat weight) edge_w bias edge_src edge_dst,

  and the six arguments end unchanged.
-/
import proofs.«100804_j66202625900919_2_alg».proof.Proof.Gen.KernelIdeal.Frame
import proofs.«100804_j66202625900919_2_alg».proof.Proof.KTail
import proofs.«100804_j66202625900919_2_alg».proof.Proof.ProjValue

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- `tail` respects equality of each of its five arguments. -/
theorem tail_congr {h h' : FVec Ideal S100000x64 .bf16} {ew ew' : FVec Ideal S1600000 .f32} {b b' : FVec Ideal S64 .f32}
    {s s' d d' : IVec S1600000 32} (e0 : h = h') (e1 : ew = ew') (e3 : b = b') (e4 : s = s') (e5 : d = d') :
    Tail.tail h ew b s d = Tail.tail h' ew' b' s' d' := by
  subst e0 e1 e3 e4 e5; rfl

/-- The result buffer after the operations that follow the region. -/
theorem tail_value (c : Dev nD) :
    Pipeline.afterTail₀ cfgs (dats m) 0 (V0 m) [hostOps1, hostOps1_1, hostOps1_2, hostOps1_3] c main_v32
      = Tail.tail (Proj.prod (m ((c : Thread nD τ).loc main_arg0)) (m ((c : Thread nD τ).loc main_arg2)))
          (m ((c : Thread nD τ).loc main_arg1)) (m ((c : Thread nD τ).loc main_arg3))
          (m ((c : Thread nD τ).loc main_arg4)) (m ((c : Thread nD τ).loc main_arg5)) := by
  unfold Pipeline.afterTail₀
  refine (Tail.after_tail _).trans ?_
  exact tail_congr
    ((Pipeline.withArrays_arr spec0 launch0.win.arr_inj c _ _ 2).trans (Proj.final m c))
    ((Pipeline.withArrays_of_ne _ c (V0 m c) _ main_arg1 (by exact (by decide : ∀ w, Pipeline.arrRef spec0 w ≠ main_arg1))).trans (V_main_arg1 m c))
    ((Pipeline.withArrays_of_ne _ c (V0 m c) _ main_arg3 (by exact (by decide : ∀ w, Pipeline.arrRef spec0 w ≠ main_arg3))).trans (V_main_arg3 m c))
    ((Pipeline.withArrays_of_ne _ c (V0 m c) _ main_arg4 (by exact (by decide : ∀ w, Pipeline.arrRef spec0 w ≠ main_arg4))).trans (V_main_arg4 m c))
    ((Pipeline.withArrays_of_ne _ c (V0 m c) _ main_arg5 (by exact (by decide : ∀ w, Pipeline.arrRef spec0 w ≠ main_arg5))).trans (V_main_arg5 m c))

/-- Every weakly fair execution of the kernel's program terminates with the result at `tail` of the product and the
    other arguments, the six arguments unchanged. -/
theorem run : θ_run (defs (F := Ideal)) (onTc (τ := τ) (main (F := Ideal))) ⟨m, fun _ => 0, ρ⟩ (fun r => ∀ c : Dev nD,
      r.2.mem ((c.tc : Thread nD τ).loc main_v32)
        = Tail.tail (Proj.prod (m ((c.tc : Thread nD τ).loc main_arg0)) (m ((c.tc : Thread nD τ).loc main_arg2)))
            (m ((c.tc : Thread nD τ).loc main_arg1)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v32 (Pipeline.mem_restRefs_of main_v32 (by decide) (by decide))).trans (tail_value m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Whole

end
-- ==== Proof.RTail.lean ====
/-
  The reference program after its matrix product, as one function of the projected node table and the other arguments.

  From the table h : [N, 64] (N = 100000 nodes), the edge weights ew : [E] (E = 1600000 edges), the bias : [64] and the
  two index vectors src, dst : [E] the reference computes:

    msg(e, j)    = h(row(src e), j) · ew(e)            (src e first wrapped: a negative index counts from the end);
    msum         = the zero table [N, 64] with row e of msg added into row dst e, for every edge e;
    deg          = the zero vector [N] with 1 added at dst e, for every edge e;
    out(n, j)    = max( where(deg n > 0, msum(n, j) / max(deg n, 1), 0) + bias j , 0 ).

  `finish` is the last line as a function of (msum, deg, bias); `tail` composes everything; `run_tail` restates the
  reference's run with its result written as `tail` of the host's matrix product of the first and third arguments.
-/
import proofs.«100804_j66202625900919_2_alg».proof.Proof.RefRun
import Idealize.ShloMosaic.PureOps.Ideal

noncomputable section

namespace Cert.ReferenceIdeal.Tail

open Cert.ReferenceIdeal Cert.ReferenceIdeal.Gen Idealize.ShloMosaic Idealize.ShloMosaic.TcCoe Idealize.SL.Sem
open Idealize.ShloMosaic.StableHlo

/-- The edges' source indices, a negative one wrapped from the end, as a column [E, 1]. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The message of each edge: its source node's row of the table times the edge's weight. -/
def msg (h : FVec Ideal S100000x64 .f32) (ew : FVec Ideal S1600000 .f32) (src : IVec S1600000 32) :
    FVec Ideal S1600000x64 .f32 :=
  mulf (Host.gather gather_S100000x64_S1600000x1_S1600000x64_1_0_n_n_0_1_164 h (srcCol src))
    (broadcastInDim S1600000x64 ![0, 1] bcast_S1600000x1_S1600000x64_0_1
      (broadcastInDim S1600000x1 ![0] bcast_S1600000_S1600000x1_0 ew))

/-- The summed messages: the messages' rows added into the zero table at the edges' destination rows. -/
def msum (h : FVec Ideal S100000x64 .f32) (ew : FVec Ideal S1600000 .f32) (src dst : IVec S1600000 32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (msg h ew src)

/-- The in-degrees: a one added into the zero vector at each edge's destination. -/
def deg (dst : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The mean over the incoming edges (0 at a node without any), plus the bias, clipped below at 0. -/
def finish (ms : FVec Ideal S100000x64 .f32) (dg : FVec Ideal S100000 .f32) (bias : FVec Ideal S64 .f32) :
    FVec Ideal S100000x64 .f32 :=
  maximumf
    (addf
      (select
        (broadcastInDim S100000x64 ![0, 1] bcast_S100000x1_S100000x64_0_1
          (cmpf (F := Ideal) .ogt (broadcastInDim S100000x1 ![0] bcast_S100000_S100000x1_0 dg)
            (broadcastInDim S100000x1 ![] bcast_S_S100000x1 (constant (F := Ideal) S_ .f32 0x00000000#32))))
        (Host.divf (F := Ideal) ms
          (broadcastInDim S100000x64 ![0, 1] bcast_S100000x1_S100000x64_0_1
            (broadcastInDim S100000x1 ![0] bcast_S100000_S100000x1_0
              (maximumf dg (broadcastInDim S100000 ![] bcast_S_S100000 (constant (F := Ideal) S_ .f32 0x3F800000#32))))))
        (broadcastInDim S100000x64 ![] bcast_S_S100000x64 (id (constant (F := Ideal) S_ .f32 0x00000000#32))))
      (broadcastInDim S100000x64 ![0, 1] bcast_S1x64_S100000x64_0_1 (broadcastInDim S1x64 ![1] bcast_S64_S1x64_1 bias)))
    (broadcastInDim S100000x64 ![] bcast_S_S100000x64 (constant (F := Ideal) S_ .f32 0x00000000#32))

/-- Everything after the matrix product. -/
def tail (h : FVec Ideal S100000x64 .f32) (ew : FVec Ideal S1600000 .f32) (bias : FVec Ideal S64 .f32)
    (src dst : IVec S1600000 32) : FVec Ideal S100000x64 .f32 :=
  finish (msum h ew src dst) (deg dst) bias

/-- The reference's run at the ideal values, its result written as `tail` of the host's product of the table and the
    weight matrix: every weakly fair execution terminates there, the arguments unchanged. -/
theorem run_tail (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30)
        = tail (Host.dotGeneral (F := Ideal) (φ₁ := .f32) (φ₂ := .f32) dot_S100000x512_S512x64_S100000x64_1_0_0_1_n_n none
              (m ((c.tc : Thread nD τ).loc main_arg0)) (m ((c.tc : Thread nD τ).loc main_arg2)))
            (m ((c.tc : Thread nD τ).loc main_arg1)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.ValueP.run (F := Ideal) m ρ

end Cert.ReferenceIdeal.Tail

end
-- ==== Proof.LibSegSum.lean ====
/-
  Scatter-adds along a column of row indices, at the ideal values, read at one entry — for any extents.

  A table x : [N, C] receives updates u : [E, C] at a column [E, 1] of row indices (what a segment sum of E rows into N
  segments lowers to): update element (e, c) is added at (r e, c), where r e is edge e's index read as a signed integer,
  and is dropped when r e is outside [0, N).  So the result at (n, q) is

      x(n, q) + Σ_{e < E} [r e = n] · u(e, q)                                   (scatterRows_apply),

  the bracket meaning: the summand is u(e, q) where the equation holds and 0 elsewhere.  The vector form — x : [N],
  u : [E], the same column of indices — has at n the value x(n) + Σ_{e < E} [r e = n] · u(e)   (scatterVec_apply).

  Both follow from the exact landing condition of one update element (rows_lands_iff, vec_lands_iff): it lands on an
  entry iff its row index, read signed, IS that entry's row and (for rows) its column is that entry's column.  The sums
  are finite sums on the extended reals, which form a commutative monoid under addition, so nothing about finiteness of
  the summands is needed.
  Imports only the library.
-/
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## Rows: a table [N, C], indices [E, 1], updates [E, C] -/

/-- The dimension numbers of a row scatter: the updates' axis 1 is the window axis and goes to the table's axis 1, the
    table's axis 0 is indexed by the one component of the index vector. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (u : (⟨2, ![E, C]⟩ : Shape).Idx)

/-- On the row axis the window starts at the edge's index, read signed. -/
theorem rows_start_row :
    (rowsScatter N C E wf).start u idx (0 : Fin 2) = (idx (ix2 (u 0) (0 : Fin 1))).toInt := by
  unfold ScatterDims.start
  rw [dif_pos (show (0 : Fin 2) ∈ (rowsScatter N C E wf).scatterDimsToOperandDims from List.mem_singleton.mpr rfl)]
  refine congrArg (fun k => (idx k).toInt) (funext fun b => Fin.ext ?_)
  match b with
  | ⟨0, _⟩ => rfl
  | ⟨1, _⟩ => rfl

/-- On the column axis the window starts at 0. -/
theorem rows_start_col : (rowsScatter N C E wf).start u idx (1 : Fin 2) = 0 := by
  unfold ScatterDims.start
  exact dif_neg (show ¬ (1 : Fin 2) ∈ ([0] : List (Fin 2)) by decide)

/-- The row axis is inserted: no window coordinate there. -/
theorem rows_window_row : (rowsScatter N C E wf).window u (0 : Fin 2) = 0 := by
  unfold ScatterDims.window
  exact dif_neg (show ¬ (0 : Fin 2) ∈ (rowsScatter N C E wf).sKept by
    simp [ScatterDims.sKept, Shape.kept, List.mem_filter, List.mem_finRange])

/-- On the column axis the window coordinate is the update's own column. -/
theorem rows_window_col : (rowsScatter N C E wf).window u (1 : Fin 2) = (u 1).val := by
  unfold ScatterDims.window
  rw [dif_pos (show (1 : Fin 2) ∈ (rowsScatter N C E wf).sKept by
    simp [ScatterDims.sKept, Shape.kept, List.mem_filter, List.mem_finRange])]
  rfl

/-- An update element lands on the entry i exactly when its edge's index, read signed, is i's row and its column is
    i's column. -/
theorem rows_lands_iff (i : (⟨2, ![N, C]⟩ : Shape).Idx) :
    (rowsScatter N C E wf).resultIdx? u idx = some i
      ↔ (idx (ix2 (u 0) (0 : Fin 1))).toInt = ((i 0).val : Int) ∧ (u 1).val = (i 1).val := by
  have hi0 : (i 0).val < N := idx2_lt0 i
  have hi1 : (i 1).val < C := idx2_lt1 i
  have hu1 : (u 1).val < C := idx2_lt1 u
  unfold ScatterDims.resultIdx?
  split
  · rename_i hall
    have h0 := (hall 0).1
    rw [rows_start_row, rows_window_row] at h0
    constructor
    · intro h
      have e0 : ((rowsScatter N C E wf).start u idx 0 + (rowsScatter N C E wf).window u 0).toNat = (i 0).val :=
        congrArg Fin.val (congrFun (Option.some.inj h) 0)
      have e1 : ((rowsScatter N C E wf).start u idx 1 + (rowsScatter N C E wf).window u 1).toNat = (i 1).val :=
        congrArg Fin.val (congrFun (Option.some.inj h) 1)
      rw [rows_start_row, rows_window_row] at e0
      rw [rows_start_col, rows_window_col] at e1
      constructor <;> omega
    · rintro ⟨hr, hc⟩
      refine congrArg some (funext fun a => Fin.ext ?_)
      match a with
      | ⟨0, _⟩ =>
        show ((rowsScatter N C E wf).start u idx 0 + (rowsScatter N C E wf).window u 0).toNat = (i 0).val
        rw [rows_start_row, rows_window_row]; omega
      | ⟨1, _⟩ =>
        show ((rowsScatter N C E wf).start u idx 1 + (rowsScatter N C E wf).window u 1).toNat = (i 1).val
        rw [rows_start_col, rows_window_col]; omega
  · rename_i hno
    constructor
    · intro h; exact absurd h (by simp)
    · rintro ⟨hr, hc⟩
      refine absurd (fun a => ?_) hno
      match a with
      | ⟨0, _⟩ =>
        show 0 ≤ (rowsScatter N C E wf).start u idx 0 + (rowsScatter N C E wf).window u 0
          ∧ (rowsScatter N C E wf).start u idx 0 + (rowsScatter N C E wf).window u 0 < (N : Int)
        rw [rows_start_row, rows_window_row]; omega
      | ⟨1, _⟩ =>
        show 0 ≤ (rowsScatter N C E wf).start u idx 1 + (rowsScatter N C E wf).window u 1
          ∧ (rowsScatter N C E wf).start u idx 1 + (rowsScatter N C E wf).window u 1 < (C : Int)
        rw [rows_start_col, rows_window_col]; omega

end Rows

/-- A row scatter-add read at (n, q): the table's entry plus the updates (e, q) of the edges e whose index is n. -/
theorem scatterRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (q : Fin C) :
    Host.scatterAdd (F := Ideal) (rowsScatter N C E wf) x idx upd (ix2 n q)
      = x (ix2 n q) + ∑ e : Fin E, if (idx (ix2 e (0 : Fin 1))).toInt = (n.val : Int) then upd (ix2 e q) else 0 := by
  simp only [Host.scatterAdd, Ideal.hostScatterAdd_def, Ideal.hostScatterAdd]
  refine congrArg (x (ix2 n q) + ·) ?_
  rw [Finset.sum_filter, sum_idx2]
  refine Finset.sum_congr rfl fun e _ => ?_
  by_cases hr : (idx (ix2 e (0 : Fin 1))).toInt = (n.val : Int)
  · rw [if_pos hr]
    rw [Finset.sum_eq_single q]
    · exact if_pos ((rows_lands_iff wf idx (ix2 e q) (ix2 n q)).mpr ⟨hr, rfl⟩)
    · intro c _ hc
      exact if_neg fun h => hc (Fin.ext ((rows_lands_iff wf idx (ix2 e c) (ix2 n q)).mp h).2)
    · intro h; exact absurd (Finset.mem_univ q) h
  · rw [if_neg hr]
    exact Finset.sum_eq_zero fun c _ => if_neg fun h => hr ((rows_lands_iff wf idx (ix2 e c) (ix2 n q)).mp h).1

/-! ## A vector [N], indices [E, 1], updates [E] -/

/-- The dimension numbers of a scatter of scalars: no window axis, the vector's one axis indexed by the one component of
    the index vector. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (u : (⟨1, ![E]⟩ : Shape).Idx)

/-- The window starts at the edge's index, read signed. -/
theorem vec_start : (vecScatter N E wf).start u idx (0 : Fin 1) = (idx (ix2 (u 0) (0 : Fin 1))).toInt := by
  unfold ScatterDims.start
  rw [dif_pos (show (0 : Fin 1) ∈ (vecScatter N E wf).scatterDimsToOperandDims from List.mem_singleton.mpr rfl)]
  refine congrArg (fun k => (idx k).toInt) (funext fun b => Fin.ext ?_)
  match b with
  | ⟨0, _⟩ => rfl
  | ⟨1, _⟩ => rfl

/-- The one axis is inserted: no window coordinate. -/
theorem vec_window : (vecScatter N E wf).window u (0 : Fin 1) = 0 := by
  unfold ScatterDims.window
  exact dif_neg (show ¬ (0 : Fin 1) ∈ (vecScatter N E wf).sKept by
    simp [ScatterDims.sKept, Shape.kept, List.mem_filter, List.mem_finRange])

/-- An update lands on the entry i exactly when its edge's index, read signed, is i. -/
theorem vec_lands_iff (i : (⟨1, ![N]⟩ : Shape).Idx) :
    (vecScatter N E wf).resultIdx? u idx = some i ↔ (idx (ix2 (u 0) (0 : Fin 1))).toInt = ((i 0).val : Int) := by
  have hi0 : (i 0).val < N := (i 0).isLt
  unfold ScatterDims.resultIdx?
  split
  · rename_i hall
    have h0 := (hall 0).1
    rw [vec_start, vec_window] at h0
    constructor
    · intro h
      have e0 : ((vecScatter N E wf).start u idx 0 + (vecScatter N E wf).window u 0).toNat = (i 0).val :=
        congrArg Fin.val (congrFun (Option.some.inj h) 0)
      rw [vec_start, vec_window] at e0
      omega
    · intro hr
      refine congrArg some (funext fun a => Fin.ext ?_)
      obtain rfl : a = 0 := Subsingleton.elim _ _
      show ((vecScatter N E wf).start u idx 0 + (vecScatter N E wf).window u 0).toNat = (i 0).val
      rw [vec_start, vec_window]; omega
  · rename_i hno
    constructor
    · intro h; exact absurd h (by simp)
    · intro hr
      refine absurd (fun a => ?_) hno
      obtain rfl : a = 0 := Subsingleton.elim _ _
      show 0 ≤ (vecScatter N E wf).start u idx 0 + (vecScatter N E wf).window u 0
        ∧ (vecScatter N E wf).start u idx 0 + (vecScatter N E wf).window u 0 < (N : Int)
      rw [vec_start, vec_window]; omega

end Vec

/-- A sum over the index set of a one-dimensional array is the sum over its coordinate. -/
theorem sum_idx1 {M : Type*} [AddCommMonoid M] {n : Nat} (f : (⟨1, ![n]⟩ : Shape).Idx → M) :
    ∑ i, f i = ∑ a : Fin n, f (ix1 a) := by
  refine (Equiv.sum_comp (⟨fun a => ix1 a, fun i => i 0, fun _ => rfl, fun i => (eq_ix1 i).symm⟩ :
    Fin n ≃ (⟨1, ![n]⟩ : Shape).Idx) f).symm.trans ?_
  rfl

/-- A scatter-add of scalars read at n: the vector's entry plus the updates of the edges whose index is n. -/
theorem scatterVec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  simp only [Host.scatterAdd, Ideal.hostScatterAdd_def, Ideal.hostScatterAdd]
  refine congrArg (x (ix1 n) + ·) ?_
  rw [Finset.sum_filter, sum_idx1]
  refine Finset.sum_congr rfl fun e _ => ?_
  by_cases hr : (idx (ix2 e (0 : Fin 1))).toInt = (n.val : Int)
  · rw [if_pos hr]; exact if_pos ((vec_lands_iff wf idx (ix1 e) (ix1 n)).mpr hr)
  · rw [if_neg hr]; exact if_neg fun h => hr ((vec_lands_iff wf idx (ix1 e) (ix1 n)).mp h)

end Cert.LibSegSum

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.LibHostDot.lean ====
/-
  The host's matrix product read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values the host's `dot_general` has, at
  entry (p, q), the value
      Σ_{k < K} l(p, k) · r(k, q).
  The sum over the contraction shape's one-axis index type is re-indexed over `Fin K`; the operand indices the
  dimension numbers read at result entry (p, q) and contracted position k are (p, k) and (k, q).

  The hypotheses `hl0` and `hr1` say that the result's axis 0 is the left operand's axis 0 and the result's axis 1
  the right operand's axis 1; for a printed record `D` with no batch axes each is
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibHostDot

open Idealize.ShloMosaic Idealize.ShloMosaic.ValueIdx

/-- `Host.dotGeneral D prec l r (p, q) = Σ_k l(p, k) · r(k, q)` at the ideal values, for two-dimensional operands
    with one contracted axis. -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral D prec l r (ix2 p q) = ∑ k : Fin K, l (ix2 p k) * r (ix2 k q) := by
  simp only [Host.dotGeneral]
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibHostDot

end
-- ==== Proof.Bridge.lean ====
/-
  The two programs agree after the projection: as functions of the projected node table and the other four arguments the
  kernel's tail and the reference's tail are one function; and the reference's host product is the product the kernel's
  region leaves.

  Both tails end with the same line (the mean, the bias, the clip at 0) applied to a table of summed messages and a vector
  of in-degrees, so it is enough that these two agree.  A segment sum at node n is, on either side,

      0 + Σ_{e < E} [dst e = n] · f(e)                      (segSum, with dst e read as a signed integer),

  a finite sum on the extended reals.  The reference scatters the messages' rows into a table [N, 64] (f(e) = msg(e, j) at
  column j) and ones into a vector [N] (f(e) = 1).  The kernel scatters the rows [msg | 1] of width 65 into ONE table
  [N, 65]: an update element lands by its own row index and keeps its own column, so column j < 64 of that table
  receives exactly the messages' column j and column 64 exactly the ones.  The message of an edge is the same number on
  both sides: the kernel's widening of the gathered rows from bf16 is the identity on extended reals.  No finiteness of any
  entry is used: every step is a re-reading of the same finite sum.
-/
import proofs.«100804_j66202625900919_2_alg».proof.Proof.KTail
import proofs.«100804_j66202625900919_2_alg».proof.Proof.RTail
import proofs.«100804_j66202625900919_2_alg».proof.Proof.ProjValue
import proofs.«100804_j66202625900919_2_alg».proof.Proof.LibSegSum
import proofs.«100804_j66202625900919_2_alg».proof.Proof.LibRowOps
import proofs.«100804_j66202625900919_2_alg».proof.Proof.LibHostDot
import Idealize.ShloMosaic.Lib.Pipeline.Value
import Idealize.ShloMosaic.Lib.ValueIdx

noncomputable section

open scoped BigOperators

namespace Cert.Bridge

open Idealize.ShloMosaic Idealize.ShloMosaic.ValueIdx
open Cert.KernelIdeal (S_ S64 S100000 S100000x1 S100000x64 S100000x65 S1600000 S1600000x1 S1600000x64 S1600000x65 S100000x512 S512x64)

/-! ## Layout operations read at an entry -/

/-- A scalar constant repeated over any shape reads the constant's value everywhere. -/
theorem splat_apply {s : Shape} (hb : S_.BroadcastsInDim s (![] : Fin 0 → Fin s.rank)) (w : BitVec 32) (i : s.Idx) :
    broadcastInDim s ![] hb (constant (F := Ideal) S_ .f32 w) i = Ideal.ofBits .f32 w :=
  broadcastInDim_apply (![] : Fin 0 → Fin s.rank) hb (constant (F := Ideal) S_ .f32 w) i ix0 (fun a => a.elim0)

/-- A vector of E words laid as a column [E, 1] reads, at (e, 0), the vector at e. -/
theorem column_apply {α : Type} (hb : S1600000.BroadcastsInDim S1600000x1 (![0] : Fin 1 → Fin 2))
    (v : S1600000.Idx → α) (e : Fin 1600000) :
    broadcastInDim S1600000x1 ![0] hb v (ix2 e (0 : Fin 1)) = v (ix1 e) :=
  broadcastInDim_apply (![0] : Fin 1 → Fin 2) hb v (ix2 e (0 : Fin 1)) (ix1 e) (fun a => by
    obtain rfl : a = 0 := Subsingleton.elim _ _
    show e.val = if (1600000 : Nat) = 1 then 0 else e.val
    rw [if_neg (by decide)])

/-- Columns 0 … 63 of a table of 65 columns, at (n, j): the table at (n, j). -/
theorem slice_cols (X : S100000x65.Idx → EReal) (n : Fin 100000) (j : Fin 64) :
    extractStridedSlice S100000x64 ![0, 0] X Cert.KernelIdeal.Gen.slices_S100000x65_S100000x64_0_0 (ix2 n j)
      = X (ix2 n (⟨j.val, by omega⟩ : Fin 65)) :=
  extractStridedSlice_apply ![0, 0] X Cert.KernelIdeal.Gen.slices_S100000x65_S100000x64_0_0 (ix2 n j)
    (ix2 n (⟨j.val, by omega⟩ : Fin 65)) (fun a => by
      match a with
      | ⟨0, _⟩ => show n.val = 0 + n.val; omega
      | ⟨1, _⟩ => show j.val = 0 + j.val; omega)

/-- Column 64 of a table of 65 columns, at (n, 0): the table at (n, 64). -/
theorem slice_last (X : S100000x65.Idx → EReal) (n : Fin 100000) :
    extractStridedSlice S100000x1 ![0, 64] X Cert.KernelIdeal.Gen.slices_S100000x65_S100000x1_0_64 (ix2 n (0 : Fin 1))
      = X (ix2 n (⟨64, by omega⟩ : Fin 65)) :=
  extractStridedSlice_apply ![0, 64] X Cert.KernelIdeal.Gen.slices_S100000x65_S100000x1_0_64 (ix2 n (0 : Fin 1))
    (ix2 n (⟨64, by omega⟩ : Fin 65)) (fun a => by
      match a with
      | ⟨0, _⟩ => show n.val = 0 + n.val; omega
      | ⟨1, _⟩ => show 64 = 64 + 0; omega)

/-- A column [N, 1] read as a vector [N], at n: the column at (n, 0). -/
theorem cast_col (Y : S100000x1.Idx → EReal) (n : Fin 100000) :
    shapeCast S100000 Y Cert.KernelIdeal.Gen.shapeCasts_S100000x1_S100000 (ix1 n) = Y (ix2 n (0 : Fin 1)) :=
  shapeCast_apply Y Cert.KernelIdeal.Gen.shapeCasts_S100000x1_S100000 (ix1 n) (ix2 n (0 : Fin 1)) (by
    rw [Shape.rowMajor_val_two, Shape.rowMajor_val_one]
    show n.val * 1 + 0 = n.val
    omega)

/-! ## A segment sum -/

/-- The sum of f over the edges whose destination, read as a signed integer, is node n, from the zero word. -/
def segSum (dst : IVec S1600000 32) (f : Fin 1600000 → EReal) (n : Fin 100000) : EReal :=
  Ideal.ofBits .f32 0x00000000#32
    + ∑ e : Fin 1600000, if (dst (ix1 e)).toInt = (n.val : Int) then f e else 0

/-! ## The kernel's one fused table -/

/-- Entry (n, q) of the fused table: the segment sum at n of column q of the rows [msg | 1]. -/
theorem fused_apply (h : S100000x64.Idx → EReal) (ew : S1600000.Idx → EReal) (src dst : IVec S1600000 32)
    (n : Fin 100000) (q : Fin 65) :
    Cert.KernelIdeal.Tail.fused h ew src dst (ix2 n q)
      = segSum dst (fun e =>
          concatenate S1600000x65 1 [⟨S1600000x64, Cert.KernelIdeal.Tail.msg h ew src⟩,
            ⟨S1600000x1, broadcastInDim S1600000x1 ![] Cert.KernelIdeal.Gen.bcast_S_S1600000x1
              (constant (F := Ideal) S_ .f32 0x3F800000#32)⟩]
            Cert.KernelIdeal.Gen.concatenates_S1600000x64_S1600000x1_S1600000x65_d1 (ix2 e q)) n := by
  unfold Cert.KernelIdeal.Tail.fused
  refine (Cert.LibSegSum.scatterRows_apply (N := 100000) (C := 65) (E := 1600000)
    Cert.KernelIdeal.Gen.scatter_S100000x65_S1600000x1_S1600000x65_1_0_0_1_wf _ _ _ n q).trans ?_
  unfold segSum
  refine congrArg₂ (· + ·) (splat_apply _ _ _) (Finset.sum_congr rfl fun e _ => ?_)
  rw [column_apply]

/-- The kernel's summed messages at (n, j): the segment sum at n of the messages' column j. -/
theorem kmsum_apply (h : S100000x64.Idx → EReal) (ew : S1600000.Idx → EReal) (src dst : IVec S1600000 32)
    (n : Fin 100000) (j : Fin 64) :
    Cert.KernelIdeal.Tail.msum h ew src dst (ix2 n j)
      = segSum dst (fun e => Cert.KernelIdeal.Tail.msg h ew src (ix2 e j)) n := by
  unfold Cert.KernelIdeal.Tail.msum
  refine (slice_cols (Cert.KernelIdeal.Tail.fused h ew src dst) n j).trans ?_
  rw [fused_apply]
  refine congrArg (fun f => segSum dst f n) (funext fun e => ?_)
  exact Cert.LibRowOps.concat2_apply_0 _ _ _ e (⟨j.val, by omega⟩ : Fin 65) j rfl

/-- The kernel's in-degree at n: the segment sum at n of ones. -/
theorem kdeg_apply (h : S100000x64.Idx → EReal) (ew : S1600000.Idx → EReal) (src dst : IVec S1600000 32)
    (n : Fin 100000) :
    Cert.KernelIdeal.Tail.deg h ew src dst (ix1 n) = segSum dst (fun _ => Ideal.ofBits .f32 0x3F800000#32) n := by
  unfold Cert.KernelIdeal.Tail.deg
  refine (cast_col _ n).trans ?_
  refine (slice_last (Cert.KernelIdeal.Tail.fused h ew src dst) n).trans ?_
  rw [fused_apply]
  refine congrArg (fun f => segSum dst f n) (funext fun e => ?_)
  refine (Cert.LibRowOps.concat2_apply_1 _ _ _ e (⟨64, by omega⟩ : Fin 65) (0 : Fin 1) rfl).trans ?_
  exact splat_apply _ _ _

/-! ## The reference's two scatters -/

/-- The reference's summed messages at (n, j): the segment sum at n of the messages' column j. -/
theorem rmsum_apply (h : S100000x64.Idx → EReal) (ew : S1600000.Idx → EReal) (src dst : IVec S1600000 32)
    (n : Fin 100000) (j : Fin 64) :
    Cert.ReferenceIdeal.Tail.msum h ew src dst (ix2 n j)
      = segSum dst (fun e => Cert.ReferenceIdeal.Tail.msg h ew src (ix2 e j)) n := by
  unfold Cert.ReferenceIdeal.Tail.msum
  refine (Cert.LibSegSum.scatterRows_apply (N := 100000) (C := 64) (E := 1600000)
    Cert.ReferenceIdeal.Gen.scatter_S100000x64_S1600000x1_S1600000x64_1_0_0_1_wf _ _ _ n j).trans ?_
  unfold segSum
  refine congrArg₂ (· + ·) (splat_apply _ _ _) (Finset.sum_congr rfl fun e _ => ?_)
  rw [column_apply]

/-- The reference's in-degree at n: the segment sum at n of ones. -/
theorem rdeg_apply (dst : IVec S1600000 32) (n : Fin 100000) :
    Cert.ReferenceIdeal.Tail.deg dst (ix1 n) = segSum dst (fun _ => Ideal.ofBits .f32 0x3F800000#32) n := by
  unfold Cert.ReferenceIdeal.Tail.deg
  refine (Cert.LibSegSum.scatterVec_apply (N := 100000) (E := 1600000)
    Cert.ReferenceIdeal.Gen.scatter_S100000_S1600000x1_S1600000_n_0_0_1_wf _ _ _ n).trans ?_
  unfold segSum
  refine congrArg₂ (· + ·) (splat_apply _ _ _) (Finset.sum_congr rfl fun e _ => ?_)
  rw [column_apply, splat_apply]

/-! ## The two tails are one function -/

/-- An edge's message is the same number on both sides: the widening of the gathered rows is the identity. -/
theorem msg_eq (h : S100000x64.Idx → EReal) (ew : S1600000.Idx → EReal) (src : IVec S1600000 32) :
    Cert.KernelIdeal.Tail.msg h ew src = Cert.ReferenceIdeal.Tail.msg h ew src := rfl

theorem msum_eq (h : S100000x64.Idx → EReal) (ew : S1600000.Idx → EReal) (src dst : IVec S1600000 32) :
    Cert.KernelIdeal.Tail.msum h ew src dst = Cert.ReferenceIdeal.Tail.msum h ew src dst := by
  funext i
  obtain ⟨n, j, rfl⟩ : ∃ (n : Fin 100000) (j : Fin 64), i = ix2 n j := ⟨i 0, i 1, eq_ix2 i⟩
  rw [kmsum_apply, rmsum_apply, msg_eq]

theorem deg_eq (h : S100000x64.Idx → EReal) (ew : S1600000.Idx → EReal) (src dst : IVec S1600000 32) :
    Cert.KernelIdeal.Tail.deg h ew src dst = Cert.ReferenceIdeal.Tail.deg dst := by
  funext i
  obtain ⟨n, rfl⟩ : ∃ n : Fin 100000, i = ix1 n := ⟨i 0, eq_ix1 i⟩
  rw [kdeg_apply, rdeg_apply]

/-- The last line is the same function of (summed messages, in-degrees, bias) in both programs. -/
theorem finish_eq (ms : S100000x64.Idx → EReal) (dg : S100000.Idx → EReal) (bias : S64.Idx → EReal) :
    Cert.KernelIdeal.Tail.finish ms dg bias = Cert.ReferenceIdeal.Tail.finish ms dg bias := rfl

/-- After the projection the kernel and the reference compute one function. -/
theorem tail_eq (h : S100000x64.Idx → EReal) (ew : S1600000.Idx → EReal) (bias : S64.Idx → EReal)
    (src dst : IVec S1600000 32) :
    Cert.KernelIdeal.Tail.tail h ew bias src dst = Cert.ReferenceIdeal.Tail.tail h ew bias src dst := by
  unfold Cert.KernelIdeal.Tail.tail Cert.ReferenceIdeal.Tail.tail
  rw [msum_eq, deg_eq, finish_eq]

/-! ## The host's product is the region's -/

theorem ref_lhs_row (i : S100000x64.Idx)
    (c : Cert.ReferenceIdeal.dot_S100000x512_S512x64_S100000x64_1_0_0_1_n_n.contr.Idx) :
    (Cert.ReferenceIdeal.dot_S100000x512_S512x64_S100000x64_1_0_0_1_n_n.lhsIdx i c 0).val = (i 0).val := by
  unfold DotDims.lhsIdx
  rw [dif_neg (show ¬(0 : Fin _) ∈ Cert.ReferenceIdeal.dot_S100000x512_S512x64_S100000x64_1_0_0_1_n_n.lhsBatch by decide),
    dif_pos (show (0 : Fin _) ∈ Cert.ReferenceIdeal.dot_S100000x512_S512x64_S100000x64_1_0_0_1_n_n.lhsNonContracting by decide)]
  rfl

theorem ref_rhs_col (i : S100000x64.Idx)
    (c : Cert.ReferenceIdeal.dot_S100000x512_S512x64_S100000x64_1_0_0_1_n_n.contr.Idx) :
    (Cert.ReferenceIdeal.dot_S100000x512_S512x64_S100000x64_1_0_0_1_n_n.rhsIdx i c 1).val = (i 1).val := by
  unfold DotDims.rhsIdx
  rw [dif_neg (show ¬(1 : Fin _) ∈ Cert.ReferenceIdeal.dot_S100000x512_S512x64_S100000x64_1_0_0_1_n_n.rhsBatch by decide),
    dif_pos (show (1 : Fin _) ∈ Cert.ReferenceIdeal.dot_S100000x512_S512x64_S100000x64_1_0_0_1_n_n.rhsNonContracting by decide)]
  rfl

/-- The host's product of the table and the weight matrix is, entry by entry, the sum the kernel's blocks hold. -/
theorem dot_eq (feat : S100000x512.Idx → EReal) (wt : S512x64.Idx → EReal) :
    Host.dotGeneral (F := Ideal) (φ₁ := .f32) (φ₂ := .f32) Cert.ReferenceIdeal.dot_S100000x512_S512x64_S100000x64_1_0_0_1_n_n
      none feat wt = Cert.KernelIdeal.Proj.prod feat wt := by
  funext i
  obtain ⟨r, q, rfl⟩ : ∃ (r : Fin 100000) (q : Fin 64), i = ix2 r q := ⟨i 0, i 1, eq_ix2 i⟩
  exact Cert.LibHostDot.dotGeneral_ix2 Cert.ReferenceIdeal.dot_S100000x512_S512x64_S100000x64_1_0_0_1_n_n rfl rfl rfl rfl
    ref_lhs_row ref_rhs_col none feat wt r q

end Cert.Bridge

end
-- ==== Proof.lean ====
/- The proof of `Cert.Claim` (proofs.«100804_j66202625900919_2_alg».proof.Defs): a graph convolution with mean aggregation.

   Both programs compute, from a node table feat : [100000, 512], a weight matrix [512, 64], edge weights [1600000], a bias
   [64] and the edges' source and destination indices,

       out(n, j) = max( where(deg n > 0, msum(n, j) / max(deg n, 1), 0) + bias j , 0 ),
       msum(n, j) = Σ_{e : dst e = n} h(src e, j) · edge_w(e),    deg n = Σ_{e : dst e = n} 1,    h = feat · weight.

   The kernel forms h in one region of 25 row blocks (a matrix product into a zero accumulator, whose roundings to bf16 are the
   identity on extended reals) and scatters the rows [h(src e, ·) · edge_w(e) | 1] of width 65 into ONE table [N, 65], of
   which columns 0 … 63 are msum and column 64 is deg; the reference forms h by the host's matrix product and runs two
   scatters, one of the messages' rows and one of ones.  The modules:

     Proof/ProjValue.lean   the region's output array is the whole product  prod feat weight  (blocks to array);
     Proof/KTail.lean       the kernel's operations after the region as one function `tail` of h and the other arguments;
     Proof/KernelRun.lean   the kernel's run: the result is  tail (prod feat weight) …, the arguments unchanged;
     Proof/RefRun.lean, Proof/RTail.lean   the reference's run, its result as its own `tail` of the host's product;
     Proof/Bridge.lean      the two tails are one function of h (segment sums read entry by entry), and the host's product
                            is prod;
     Proof/LibSegSum.lean   a scatter-add along a column of row indices read at one entry, for any extents.

   The three frames: the kernel's two are the generated frame certificates; the reference's is its run with the result
   dropped.  The ideal pass rewrote nothing, so `preserves` is `True`.  The precondition (finite inputs) is never opened: the
   two sides are re-readings of the same finite sums on the extended reals. -/
import proofs.«100804_j66202625900919_2_alg».proof.Defs
import proofs.«100804_j66202625900919_2_alg».proof.Proof.Gen.Kernel
import proofs.«100804_j66202625900919_2_alg».proof.Proof.Gen.Kernel.Frame
import proofs.«100804_j66202625900919_2_alg».proof.Proof.Gen.KernelIdeal
import proofs.«100804_j66202625900919_2_alg».proof.Proof.Gen.KernelIdeal.Frame
import proofs.«100804_j66202625900919_2_alg».proof.Proof.Gen.ReferenceIdeal
import proofs.«100804_j66202625900919_2_alg».proof.Proof.Gen.Pre_finite_inputs
import proofs.«100804_j66202625900919_2_alg».proof.Proof.KernelRun
import proofs.«100804_j66202625900919_2_alg».proof.Proof.RTail
import proofs.«100804_j66202625900919_2_alg».proof.Proof.Bridge
import Idealize.ShloMosaic.Adequacy
import Idealize.ShloMosaic.Init

noncomputable section

namespace Cert.Proof

open Idealize.ShloMosaic Idealize.SL.Sem

/-- The word-level kernel terminates without a fault and leaves its arguments unchanged: the generated frame certificate. -/
theorem frame_k : Cert.frame_Kernel := fun m ρ _ => Cert.Kernel.Gen.frame m ρ

/-- The same for the kernel read at the ideal values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Tail.run_tail m ρ)

/-- The ideal pass rewrote no operation. -/
theorem preserves : Cert.preserves_Kernel_KernelIdeal := trivial

/-- From memories that agree on the six arguments both programs end with the result
    tail (prod feat weight) edge_w bias edge_src edge_dst: the kernel by its run, the reference by its run, the equality of
    the two tails as functions of the projected table, and the host's product being prod. -/
theorem algebraic : Cert.algebraic_KernelIdeal_ReferenceIdeal := by
  intro m ρ m' ρ' _ hagree
  refine ⟨fun c => Cert.KernelIdeal.Tail.tail
      (Cert.KernelIdeal.Proj.prod (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Tail.run_tail m' ρ')
  rw [(hagree c).1, (hagree c).2.1, (hagree c).2.2.1, (hagree c).2.2.2.1, (hagree c).2.2.2.2.1, (hagree c).2.2.2.2.2,
    Cert.Bridge.dot_eq]
  exact (Cert.Bridge.tail_eq _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
